-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x64 : Shape := ⟨2, ![2097152, 64]⟩
abbrev S64x4x64x64 : Shape := ⟨4, ![64, 4, 64, 64]⟩
abbrev S64x4x64 : Shape := ⟨3, ![64, 4, 64]⟩
abbrev S_ : Shape := ⟨0, ![]⟩

class Facts : Prop where
  bcast_S_S2097152x64 : S_.BroadcastsInDim S2097152x64 (![] : Fin 0 → Fin S2097152x64.rank)
  reducesTo_S2097152x64_S_d0_1 : S2097152x64.ReducesTo [0, 1] S_
  h_S_ : 0 < S_.numel
  bcast_S_S64x4x64x64 : S_.BroadcastsInDim S64x4x64x64 (![] : Fin 0 → Fin S64x4x64x64.rank)
  reducesTo_S64x4x64x64_S_d0_1_2_3 : S64x4x64x64.ReducesTo [0, 1, 2, 3] S_
  bcast_S_S64x4x64 : S_.BroadcastsInDim S64x4x64 (![] : Fin 0 → Fin S64x4x64.rank)
  reducesTo_S64x4x64_S_d0_1_2 : S64x4x64.ReducesTo [0, 1, 2] S_

variable [Facts]

def fn {F : FTy → Type} [FloatOps F] (main_arg0 : FVec F S2097152x64 .f32) (main_arg1 : FVec F S64x4x64x64 .f32) (main_arg2 : FVec F S64x4x64 .f32) : IVec S_ 1 :=
  let main_v0 : FVec F S2097152x64 .f32 := Host.absf main_arg0
  let main_cst : FVec F S_ .f32 := constant S_ .f32 0x7F800000#32
  let main_v1 : FVec F S2097152x64 .f32 := broadcastInDim S2097152x64 ![] bcast_S_S2097152x64 main_cst
  let main_v2 : IVec S2097152x64 1 := cmpf .olt main_v0 main_v1
  let main_c : IVec S_ 1 := constantI S_ 1 1#1
  let main_v3 : IVec S_ 1 := (fun x v => Host.reduce IntOp.andi x v reducesTo_S2097152x64_S_d0_1 h_S_) main_v2 main_c
  let main_v4 : FVec F S64x4x64x64 .f32 := Host.absf main_arg1
  let main_cst_0 : FVec F S_ .f32 := constant S_ .f32 0x7F800000#32
  let main_v5 : FVec F S64x4x64x64 .f32 := broadcastInDim S64x4x64x64 ![] bcast_S_S64x4x64x64 main_cst_0
  let main_v6 : IVec S64x4x64x64 1 := cmpf .olt main_v4 main_v5
  let main_c_1 : IVec S_ 1 := constantI S_ 1 1#1
  let main_v7 : IVec S_ 1 := (fun x v => Host.reduce IntOp.andi x v reducesTo_S64x4x64x64_S_d0_1_2_3 h_S_) main_v6 main_c_1
  let main_v8 : IVec S_ 1 := andi main_v3 main_v7
  let main_v9 : FVec F S64x4x64 .f32 := Host.absf main_arg2
  let main_cst_2 : FVec F S_ .f32 := constant S_ .f32 0x7F800000#32
  let main_v10 : FVec F S64x4x64 .f32 := broadcastInDim S64x4x64 ![] bcast_S_S64x4x64 main_cst_2
  let main_v11 : IVec S64x4x64 1 := cmpf .olt main_v9 main_v10
  let main_c_3 : IVec S_ 1 := constantI S_ 1 1#1
  let main_v12 : IVec S_ 1 := (fun x v => Host.reduce IntOp.andi x v reducesTo_S64x4x64_S_d0_1_2 h_S_) main_v11 main_c_3
  let main_v13 : IVec S_ 1 := andi main_v8 main_v12
  main_v13
-- ==== Kernel.lean ====
abbrev S2097152x64 : Shape := ⟨2, ![2097152, 64]⟩
abbrev S64x4x64x64 : Shape := ⟨4, ![64, 4, 64, 64]⟩
abbrev S64x4x64 : Shape := ⟨3, ![64, 4, 64]⟩
abbrev S64x16384x128 : Shape := ⟨3, ![64, 16384, 128]⟩
abbrev S_ : Shape := ⟨0, ![]⟩
abbrev S64x4x64x128 : Shape := ⟨4, ![64, 4, 64, 128]⟩
abbrev S64x4x128x128 : Shape := ⟨4, ![64, 4, 128, 128]⟩
abbrev S64x4x128 : Shape := ⟨3, ![64, 4, 128]⟩
abbrev S1x8192x128 : Shape := ⟨3, ![1, 8192, 128]⟩
abbrev S1x4x128x128 : Shape := ⟨4, ![1, 4, 128, 128]⟩
abbrev S1x4x128 : Shape := ⟨3, ![1, 4, 128]⟩
abbrev S8192x128 : Shape := ⟨2, ![8192, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 12
  | .vmem => 8
  | .smem => 0
  | _ => 0

abbrev bufTy : (tb : Table) → Fin (tcTables nBuf tb) → BufTy
  | .hbm, ⟨0, _⟩ => ⟨S2097152x64, .f32⟩
  | .hbm, ⟨1, _⟩ => ⟨S64x4x64x64, .f32⟩
  | .hbm, ⟨2, _⟩ => ⟨S64x4x64, .f32⟩
  | .hbm, ⟨3, _⟩ => ⟨S64x16384x128, .f32⟩
  | .hbm, ⟨4, _⟩ => ⟨S_, .f32⟩
  | .hbm, ⟨5, _⟩ => ⟨S64x4x64x64, .f32⟩
  | .hbm, ⟨6, _⟩ => ⟨S64x4x64x128, .f32⟩
  | .hbm, ⟨7, _⟩ => ⟨S64x4x64x128, .f32⟩
  | .hbm, ⟨8, _⟩ => ⟨S64x4x128x128, .f32⟩
  | .hbm, ⟨9, _⟩ => ⟨S64x4x128, .f32⟩
  | .hbm, ⟨10, _⟩ => ⟨S64x16384x128, .f32⟩
  | .hbm, ⟨11, _⟩ => ⟨S2097152x64, .f32⟩
  | .local _ .vmem, ⟨0, _⟩ => ⟨S1x8192x128, .f32⟩
  | .local _ .vmem, ⟨1, _⟩ => ⟨S1x8192x128, .f32⟩
  | .local _ .vmem, ⟨2, _⟩ => ⟨S1x4x128x128, .f32⟩
  | .local _ .vmem, ⟨3, _⟩ => ⟨S1x4x128x128, .f32⟩
  | .local _ .vmem, ⟨4, _⟩ => ⟨S1x4x128, .f32⟩
  | .local _ .vmem, ⟨5, _⟩ => ⟨S1x4x128, .f32⟩
  | .local _ .vmem, ⟨6, _⟩ => ⟨S1x8192x128, .f32⟩
  | .local _ .vmem, ⟨7, _⟩ => ⟨S1x8192x128, .f32⟩
  | _, _ => ⟨S2097152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2097152x64_S64x16384x128 : S2097152x64.ShapeCasts S64x16384x128
  bcast_S_S64x4x64x64 : S_.BroadcastsInDim S64x4x64x64 (![] : Fin 0 → Fin S64x4x64x64.rank)
  concatenates_S64x4x64x64_S64x4x64x64_S64x4x64x128_d3 : Shape.Concatenates [S64x4x64x64, S64x4x64x64] S64x4x64x128 3
  concatenates_S64x4x64x128_S64x4x64x128_S64x4x128x128_d2 : Shape.Concatenates [S64x4x64x128, S64x4x64x128] S64x4x128x128 2
  concatenates_S64x4x64_S64x4x64_S64x4x128_d2 : Shape.Concatenates [S64x4x64, S64x4x64] S64x4x128 2
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x4x128x128_S1x1x128x128_0_0_0_0 : ∀ a, (![0, 0, 0, 0] : Fin 4 → Nat) a + S1x1x128x128.size a ≤ S1x4x128x128.size a
  h_S1x1x128x128 : 0 < S1x1x128x128.numel
  shapeCasts_S1x1x128x128_S128x128 : S1x1x128x128.ShapeCasts S128x128
  inb_S1x4x128_S1x1x128_0_0_0 : ∀ a, (![0, 0, 0] : Fin 3 → Nat) a + S1x1x128.size a ≤ S1x4x128.size a
  h_S1x1x128 : 0 < S1x1x128.numel
  shapeCasts_S1x1x128_S128 : S1x1x128.ShapeCasts S128
  shapeCasts_S128_S1x128 : S128.ShapeCasts S1x128
  broadcasts_S1x128_S8192x128 : S1x128.Broadcasts S8192x128
  inb_S1x4x128x128_S1x1x128x128_0_1_0_0 : ∀ a, (![0, 1, 0, 0] : Fin 4 → Nat) a + S1x1x128x128.size a ≤ S1x4x128x128.size a
  inb_S1x4x128_S1x1x128_0_1_0 : ∀ a, (![0, 1, 0] : Fin 3 → Nat) a + S1x1x128.size a ≤ S1x4x128.size a
  inb_S1x4x128x128_S1x1x128x128_0_2_0_0 : ∀ a, (![0, 2, 0, 0] : Fin 4 → Nat) a + S1x1x128x128.size a ≤ S1x4x128x128.size a
  inb_S1x4x128_S1x1x128_0_2_0 : ∀ a, (![0, 2, 0] : Fin 3 → Nat) a + S1x1x128.size a ≤ S1x4x128.size a
  inb_S1x4x128x128_S1x1x128x128_0_3_0_0 : ∀ a, (![0, 3, 0, 0] : Fin 4 → Nat) a + S1x1x128x128.size a ≤ S1x4x128x128.size a
  inb_S1x4x128_S1x1x128_0_3_0 : ∀ a, (![0, 3, 0] : Fin 3 → Nat) a + S1x1x128.size a ≤ S1x4x128.size a
  shapeCasts_S8192x128_S1x8192x128 : S8192x128.ShapeCasts S1x8192x128
  shapeCasts_S64x16384x128_S2097152x64 : S64x16384x128.ShapeCasts S2097152x64
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S64x16384x128.size a
  hwx0_0 : ∀ i : grid0.Coords, EltTy.bits .f32 = 32 ∨ (Rect.block (s := S64x16384x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x128x128.size a ≤ S64x4x128x128.size a
  hwx0_1 : ∀ i : grid0.Coords, EltTy.bits .f32 = 32 ∨ (Rect.block (s := S64x4x128x128) S1x4x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x128.size a ≤ S64x4x128.size a
  hwx0_2 : ∀ i : grid0.Coords, EltTy.bits .f32 = 32 ∨ (Rect.block (s := S64x4x128) S1x4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S64x16384x128.size a
  hwx0_3 : ∀ i : grid0.Coords, EltTy.bits .f32 = 32 ∨ (Rect.block (s := S64x16384x128) S1x8192x128.size (cc0_transform_3 i) (hinb0_3 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_v0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2097152x64 : Shape := ⟨2, ![2097152, 64]⟩
abbrev S64x4x64x64 : Shape := ⟨4, ![64, 4, 64, 64]⟩
abbrev S64x4x64 : Shape := ⟨3, ![64, 4, 64]⟩
abbrev S64x32768x64 : Shape := ⟨3, ![64, 32768, 64]⟩
abbrev S64x1x64x64 : Shape := ⟨4, ![64, 1, 64, 64]⟩
abbrev S64x64x64 : Shape := ⟨3, ![64, 64, 64]⟩
abbrev S64x1x64 : Shape := ⟨3, ![64, 1, 64]⟩
abbrev S64x64 : Shape := ⟨2, ![64, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S2097152x64, .f32⟩
  | .hbm, ⟨1, _⟩ => ⟨S64x4x64x64, .f32⟩
  | .hbm, ⟨2, _⟩ => ⟨S64x4x64, .f32⟩
  | .hbm, ⟨3, _⟩ => ⟨S64x32768x64, .f32⟩
  | .hbm, ⟨4, _⟩ => ⟨S64x1x64x64, .f32⟩
  | .hbm, ⟨5, _⟩ => ⟨S64x64x64, .f32⟩
  | .hbm, ⟨6, _⟩ => ⟨S64x32768x64, .f32⟩
  | .hbm, ⟨7, _⟩ => ⟨S64x1x64, .f32⟩
  | .hbm, ⟨8, _⟩ => ⟨S64x64, .f32⟩
  | .hbm, ⟨9, _⟩ => ⟨S64x1x64, .f32⟩
  | .hbm, ⟨10, _⟩ => ⟨S64x32768x64, .f32⟩
  | .hbm, ⟨11, _⟩ => ⟨S64x32768x64, .f32⟩
  | .hbm, ⟨12, _⟩ => ⟨S_, .f32⟩
  | .hbm, ⟨13, _⟩ => ⟨S64x32768x64, .f32⟩
  | .hbm, ⟨14, _⟩ => ⟨S64x32768x64, .f32⟩
  | .hbm, ⟨15, _⟩ => ⟨S64x1x64x64, .f32⟩
  | .hbm, ⟨16, _⟩ => ⟨S64x64x64, .f32⟩
  | .hbm, ⟨17, _⟩ => ⟨S64x32768x64, .f32⟩
  | .hbm, ⟨18, _⟩ => ⟨S64x1x64, .f32⟩
  | .hbm, ⟨19, _⟩ => ⟨S64x64, .f32⟩
  | .hbm, ⟨20, _⟩ => ⟨S64x1x64, .f32⟩
  | .hbm, ⟨21, _⟩ => ⟨S64x32768x64, .f32⟩
  | .hbm, ⟨22, _⟩ => ⟨S64x32768x64, .f32⟩
  | .hbm, ⟨23, _⟩ => ⟨S_, .f32⟩
  | .hbm, ⟨24, _⟩ => ⟨S64x32768x64, .f32⟩
  | .hbm, ⟨25, _⟩ => ⟨S64x32768x64, .f32⟩
  | .hbm, ⟨26, _⟩ => ⟨S64x1x64x64, .f32⟩
  | .hbm, ⟨27, _⟩ => ⟨S64x64x64, .f32⟩
  | .hbm, ⟨28, _⟩ => ⟨S64x32768x64, .f32⟩
  | .hbm, ⟨29, _⟩ => ⟨S64x1x64, .f32⟩
  | .hbm, ⟨30, _⟩ => ⟨S64x64, .f32⟩
  | .hbm, ⟨31, _⟩ => ⟨S64x1x64, .f32⟩
  | .hbm, ⟨32, _⟩ => ⟨S64x32768x64, .f32⟩
  | .hbm, ⟨33, _⟩ => ⟨S64x32768x64, .f32⟩
  | .hbm, ⟨34, _⟩ => ⟨S_, .f32⟩
  | .hbm, ⟨35, _⟩ => ⟨S64x32768x64, .f32⟩
  | .hbm, ⟨36, _⟩ => ⟨S64x32768x64, .f32⟩
  | .hbm, ⟨37, _⟩ => ⟨S64x1x64x64, .f32⟩
  | .hbm, ⟨38, _⟩ => ⟨S64x64x64, .f32⟩
  | .hbm, ⟨39, _⟩ => ⟨S64x32768x64, .f32⟩
  | .hbm, ⟨40, _⟩ => ⟨S64x1x64, .f32⟩
  | .hbm, ⟨41, _⟩ => ⟨S64x64, .f32⟩
  | .hbm, ⟨42, _⟩ => ⟨S64x1x64, .f32⟩
  | .hbm, ⟨43, _⟩ => ⟨S64x32768x64, .f32⟩
  | .hbm, ⟨44, _⟩ => ⟨S64x32768x64, .f32⟩
  | .hbm, ⟨45, _⟩ => ⟨S_, .f32⟩
  | .hbm, ⟨46, _⟩ => ⟨S64x32768x64, .f32⟩
  | .hbm, ⟨47, _⟩ => ⟨S64x32768x64, .f32⟩
  | .hbm, ⟨48, _⟩ => ⟨S2097152x64, .f32⟩
  | _, _ => ⟨S2097152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call1_cst : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call2_cst : Ref sig .tc := ⟨.hbm, 34, rfl⟩
abbrev main_call2_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call3_cst : Ref sig .tc := ⟨.hbm, 45, rfl⟩
abbrev main_call3_v0 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  shapeCasts_S2097152x64_S64x32768x64 : S2097152x64.ShapeCasts S64x32768x64
  slices_S64x4x64x64_S64x1x64x64_0_0_0_0 : S64x4x64x64.Slices ![0, 0, 0, 0] S64x1x64x64
  shapeCasts_S64x1x64x64_S64x64x64 : S64x1x64x64.ShapeCasts S64x64x64
  slices_S64x4x64_S64x1x64_0_0_0 : S64x4x64.Slices ![0, 0, 0] S64x1x64
  shapeCasts_S64x1x64_S64x64 : S64x1x64.ShapeCasts S64x64
  bcast_S64x64_S64x1x64_0_2 : S64x64.BroadcastsInDim S64x1x64 (![0, 2] : Fin 2 → Fin S64x1x64.rank)
  bcast_S64x1x64_S64x32768x64_0_1_2 : S64x1x64.BroadcastsInDim S64x32768x64 (![0, 1, 2] : Fin 3 → Fin S64x32768x64.rank)
  bcast_S_S64x32768x64 : S_.BroadcastsInDim S64x32768x64 (![] : Fin 0 → Fin S64x32768x64.rank)
  slices_S64x4x64x64_S64x1x64x64_0_1_0_0 : S64x4x64x64.Slices ![0, 1, 0, 0] S64x1x64x64
  slices_S64x4x64_S64x1x64_0_1_0 : S64x4x64.Slices ![0, 1, 0] S64x1x64
  slices_S64x4x64x64_S64x1x64x64_0_2_0_0 : S64x4x64x64.Slices ![0, 2, 0, 0] S64x1x64x64
  slices_S64x4x64_S64x1x64_0_2_0 : S64x4x64.Slices ![0, 2, 0] S64x1x64
  slices_S64x4x64x64_S64x1x64x64_0_3_0_0 : S64x4x64x64.Slices ![0, 3, 0, 0] S64x1x64x64
  slices_S64x4x64_S64x1x64_0_3_0 : S64x4x64.Slices ![0, 3, 0] S64x1x64
  shapeCasts_S64x32768x64_S2097152x64 : S64x32768x64.ShapeCasts S2097152x64
  dot_S64x32768x64_S64x64x64_S64x32768x64_2_2_1_1_0_0_wf : DotDims.WF S64x32768x64 S64x64x64 S64x32768x64 [2] [2] [1] [1] [0] [0]

variable [Facts₀]

def dot_S64x32768x64_S64x64x64_S64x32768x64_2_2_1_1_0_0 : DotDims S64x32768x64 S64x64x64 S64x32768x64 where
  lhsContracting := [2]
  rhsContracting := [2]
  lhsNonContracting := [1]
  rhsNonContracting := [1]
  lhsBatch := [0]
  rhsBatch := [0]
  wf := dot_S64x32768x64_S64x64x64_S64x32768x64_2_2_1_1_0_0_wf

class Facts : Prop extends Facts₀ where

variable [Facts]
-- ==== Proof.PackedLayers.lean ====
/-
  The mathematics of a row of a grouped Linear+ReLU network, and of its lane-packed form.

  One layer sends a row `x` of `K` features to `y f = max (Σ_h x h · w f h + b f) 0` (the weight in the
  `[out, in]` convention, so the contraction runs over the weight's second index). Four such layers in a row are
  `mlp4`.

  PACKING. Two rows of 64 features laid side by side make one row of 128 lanes: lane `p·64 + d` holds feature
  `d` of row `p`. Against the block-diagonal weight `diag(w, w)` — entry `(q·64 + f, p·64 + d)` is `w f d`
  when `p = q` and zero otherwise — and the bias repeated twice, one layer on the packed row is the layer on each
  of the two rows separately, side by side again: the sum over the 128 lanes splits into the two sums over 64
  features, and in the half that belongs to the other row every product has a zero factor. On the extended reals
  `x · 0 = 0` for EVERY `x`, the infinities included, so the law needs no finiteness of the entries; nor does
  splitting a finite sum.
-/
import Idealize.ShloMosaic.PureOps.Ideal
import Idealize.ShloMosaic.Lib.ValueIdx

noncomputable section

namespace Cert.GroupedMlp

/-- One Linear+ReLU layer on a row of `K` features. -/
def layer {K : ℕ} (w : Fin K → Fin K → EReal) (b : Fin K → EReal) (x : Fin K → EReal) : Fin K → EReal :=
  fun f => max ((∑ h : Fin K, x h * w f h) + b f) 0

/-- Four layers, layer 0 first. -/
def mlp4 {K : ℕ} (w : Fin 4 → Fin K → Fin K → EReal) (b : Fin 4 → Fin K → EReal) (x : Fin K → EReal) :
    Fin K → EReal :=
  layer (w 3) (b 3) (layer (w 2) (b 2) (layer (w 1) (b 1) (layer (w 0) (b 0) x)))

/-- A layer depends on its weight, bias and row only through their entries. -/
theorem layer_congr {K : ℕ} {w w' : Fin K → Fin K → EReal} {b b' : Fin K → EReal} {x x' : Fin K → EReal}
    (hw : ∀ f h, w f h = w' f h) (hb : ∀ f, b f = b' f) (hx : ∀ h, x h = x' h) : layer w b x = layer w' b' x' := by
  have e1 : w = w' := funext fun f => funext fun h => hw f h
  have e2 : b = b' := funext hb
  have e3 : x = x' := funext hx
  rw [e1, e2, e3]

/-- So do four. -/
theorem mlp4_congr {K : ℕ} {w w' : Fin 4 → Fin K → Fin K → EReal} {b b' : Fin 4 → Fin K → EReal} {x x' : Fin K → EReal}
    (hw : ∀ l f h, w l f h = w' l f h) (hb : ∀ l f, b l f = b' l f) (hx : ∀ h, x h = x' h) : mlp4 w b x = mlp4 w' b' x' := by
  have e1 : w = w' := funext fun l => funext fun f => funext fun h => hw l f h
  have e2 : b = b' := funext fun l => funext fun f => hb l f
  have e3 : x = x' := funext hx
  rw [e1, e2, e3]

/-- Lane `p·64 + d` of a packed row: feature `d` of row `p` of the pair. -/
def lane (p : Fin 2) (d : Fin 64) : Fin 128 := ⟨p.val * 64 + d.val, by have := p.isLt; have := d.isLt; omega⟩

theorem lane_val (p : Fin 2) (d : Fin 64) : (lane p d).val = p.val * 64 + d.val := rfl

/-- Every lane is some row's feature. -/
theorem eq_lane (h : Fin 128) : h = lane ⟨h.val / 64, by have := h.isLt; omega⟩ ⟨h.val % 64, Nat.mod_lt _ (by decide)⟩ :=
  Fin.ext (by show h.val = h.val / 64 * 64 + h.val % 64; omega)

/-- A sum over the 128 lanes is the sum over the first row's features plus the sum over the second's. -/
theorem sum_lanes {M : Type*} [AddCommMonoid M] (g : Fin 128 → M) :
    ∑ h : Fin 128, g h = ∑ d : Fin 64, g (lane 0 d) + ∑ d : Fin 64, g (lane 1 d) := by
  refine (Fin.sum_univ_add (a := 64) (b := 64) g).trans ?_
  have e0 : ∀ d : Fin 64, Fin.castAdd 64 d = lane 0 d := fun d => Fin.ext (by show d.val = 0 * 64 + d.val; omega)
  have e1 : ∀ d : Fin 64, Fin.natAdd 64 d = lane 1 d := fun d => Fin.ext (by show 64 + d.val = 1 * 64 + d.val; omega)
  simp only [e0, e1]

/-- THE LAW: a packed row against a block-diagonal weight contracts, at lane `q·64 + f`, to row `q` against the
    one block — the other row's half of the sum is a sum of zeros. -/
theorem packed_dot (x : Fin 2 → Fin 64 → EReal) (w : Fin 64 → Fin 64 → EReal)
    (x' : Fin 128 → EReal) (w' : Fin 128 → Fin 128 → EReal)
    (hx : ∀ p d, x' (lane p d) = x p d)
    (hw : ∀ q f p d, w' (lane q f) (lane p d) = if p = q then w f d else 0)
    (q : Fin 2) (f : Fin 64) :
    ∑ h : Fin 128, x' h * w' (lane q f) h = ∑ d : Fin 64, x q d * w f d := by
  rw [sum_lanes]
  simp only [hx, hw]
  fin_cases q <;> simp

/-- One layer on a packed row is the layer on each of its two rows. -/
theorem packed_layer (x : Fin 2 → Fin 64 → EReal) (w : Fin 64 → Fin 64 → EReal) (b : Fin 64 → EReal)
    (x' : Fin 128 → EReal) (w' : Fin 128 → Fin 128 → EReal) (b' : Fin 128 → EReal)
    (hx : ∀ p d, x' (lane p d) = x p d)
    (hw : ∀ q f p d, w' (lane q f) (lane p d) = if p = q then w f d else 0)
    (hb : ∀ q f, b' (lane q f) = b f) (q : Fin 2) (f : Fin 64) :
    layer w' b' x' (lane q f) = layer w b (x q) f := by
  unfold layer
  rw [packed_dot x w x' w' hx hw q f, hb]

/-- Four layers on a packed row are the four layers on each of its two rows. -/
theorem packed_mlp4 (x : Fin 2 → Fin 64 → EReal) (w : Fin 4 → Fin 64 → Fin 64 → EReal) (b : Fin 4 → Fin 64 → EReal)
    (x' : Fin 128 → EReal) (w' : Fin 4 → Fin 128 → Fin 128 → EReal) (b' : Fin 4 → Fin 128 → EReal)
    (hx : ∀ p d, x' (lane p d) = x p d)
    (hw : ∀ l q f p d, w' l (lane q f) (lane p d) = if p = q then w l f d else 0)
    (hb : ∀ l q f, b' l (lane q f) = b l f) (q : Fin 2) (f : Fin 64) :
    mlp4 w' b' x' (lane q f) = mlp4 w b (x q) f := by
  unfold mlp4
  have h1 := packed_layer x (w 0) (b 0) x' (w' 0) (b' 0) hx (hw 0) (hb 0)
  have h2 := packed_layer (fun p => layer (w 0) (b 0) (x p)) (w 1) (b 1) _ (w' 1) (b' 1) h1 (hw 1) (hb 1)
  have h3 := packed_layer (fun p => layer (w 1) (b 1) (layer (w 0) (b 0) (x p))) (w 2) (b 2) _ (w' 2) (b' 2) h2 (hw 2) (hb 2)
  exact packed_layer (fun p => layer (w 2) (b 2) (layer (w 1) (b 1) (layer (w 0) (b 0) (x p)))) (w 3) (b 3) _ (w' 3) (b' 3) h3 (hw 3) (hb 3) q f

end Cert.GroupedMlp

end
-- ==== Proof.BodyPayload.lean ====
/-
  What the kernel's body leaves in the output block, read at an index. The body loads the block of packed rows
  (`[1, 8192, 128]`), the model's four packed weights (`[1, 4, 128, 128]`, one `[128, 128]` matrix per layer) and its four
  packed biases (`[1, 4, 128]`), and computes four times: the matrix product of the rows with the layer's weight,
  contracting the LAST axis of both (so the weight is in the `[out, in]` convention) into a zero accumulator, plus the
  layer's bias broadcast over the rows, maximum with zero. At the extended reals the product into a zero accumulator is the
  plain sum over the 128 lanes, so row `r`, lane `f` of the block the body stores is `GroupedMlp.mlp4` of the loaded
  weights and biases on row `r` of the loaded block.
-/
import proofs.«175839_j30004641530481_2_alg».proof.Proof.Gen.KernelIdeal.Frame
import proofs.«175839_j30004641530481_2_alg».proof.Proof.PackedLayers
import Idealize.ShloMosaic.Lib.Pipeline.Value
import Idealize.ShloMosaic.Lib.ValueIdx
import Idealize.ShloMosaic.Lib.ValueLayout
import Idealize.ShloMosaic.PureOps.Ideal.Laws

noncomputable section

namespace Cert.GroupedMlp.Body

open Cert.KernelIdeal Cert.KernelIdeal.Gen Cert.GroupedMlp
open Idealize.ShloMosaic Idealize.ShloMosaic.TcCoe Idealize.ShloMosaic.ValueIdx

/-- The operands' indices at output `(r, f)` and contraction index `q`, coordinate by coordinate: the left operand at
    `(r, q)`, the right at `(f, q)`. -/
theorem lhs_coord0 (j : S8192x128.Idx) (q : dot_S8192x128_S128x128_S8192x128_1_1_0_0_n_n.contr.Idx) : (dot_S8192x128_S128x128_S8192x128_1_1_0_0_n_n.lhsIdx j q 0).val = (j 0).val := by
  unfold DotDims.lhsIdx
  rw [dif_neg (show ¬(0 : Fin S8192x128.rank) ∈ dot_S8192x128_S128x128_S8192x128_1_1_0_0_n_n.lhsBatch by decide), dif_pos (show (0 : Fin S8192x128.rank) ∈ dot_S8192x128_S128x128_S8192x128_1_1_0_0_n_n.lhsNonContracting by decide)]
  rfl
theorem lhs_coord1 (j : S8192x128.Idx) (q : dot_S8192x128_S128x128_S8192x128_1_1_0_0_n_n.contr.Idx) : (dot_S8192x128_S128x128_S8192x128_1_1_0_0_n_n.lhsIdx j q 1).val = (q ⟨0, by decide⟩).val :=
  dot_S8192x128_S128x128_S8192x128_1_1_0_0_n_n.lhsIdx_val_of_single rfl j q
theorem rhs_coord0 (j : S8192x128.Idx) (q : dot_S8192x128_S128x128_S8192x128_1_1_0_0_n_n.contr.Idx) : (dot_S8192x128_S128x128_S8192x128_1_1_0_0_n_n.rhsIdx j q 0).val = (j 1).val := by
  unfold DotDims.rhsIdx
  rw [dif_neg (show ¬(0 : Fin S128x128.rank) ∈ dot_S8192x128_S128x128_S8192x128_1_1_0_0_n_n.rhsBatch by decide), dif_pos (show (0 : Fin S128x128.rank) ∈ dot_S8192x128_S128x128_S8192x128_1_1_0_0_n_n.rhsNonContracting by decide)]
  rfl
theorem rhs_coord1 (j : S8192x128.Idx) (q : dot_S8192x128_S128x128_S8192x128_1_1_0_0_n_n.contr.Idx) : (dot_S8192x128_S128x128_S8192x128_1_1_0_0_n_n.rhsIdx j q 1).val = (q ⟨0, by decide⟩).val :=
  dot_S8192x128_S128x128_S8192x128_1_1_0_0_n_n.rhsIdx_val_of_single rfl j q

/-- The matrix product of the body at row `r`, lane `f`: both operands contract their last axis. -/
theorem matmul_apply (v : FVec Ideal S8192x128 .f32) (w : FVec Ideal S128x128 .f32) (r : Fin 8192) (f : Fin 128) :
    matmul dot_S8192x128_S128x128_S8192x128_1_1_0_0_n_n none v w (constant S8192x128 .f32 0x00000000#32) (ix2 r f)
      = ∑ h : Fin 128, v (ix2 r h) * w (ix2 f h) := by
  simp only [matmul]
  rw [Ideal.matmul_constant_zero_apply, ← Equiv.sum_comp (contrEquiv1 dot_S8192x128_S128x128_S8192x128_1_1_0_0_n_n 128 rfl rfl).symm]
  refine Finset.sum_congr rfl fun k _ => ?_
  have hk := contrEquiv1_symm_val dot_S8192x128_S128x128_S8192x128_1_1_0_0_n_n 128 rfl rfl k
  have el : dot_S8192x128_S128x128_S8192x128_1_1_0_0_n_n.lhsIdx (ix2 r f) ((contrEquiv1 dot_S8192x128_S128x128_S8192x128_1_1_0_0_n_n 128 rfl rfl).symm k) = ix2 r k := funext fun a => Fin.ext (by
    match a with
    | ⟨0, _⟩ => exact lhs_coord0 _ _
    | ⟨1, _⟩ => exact (lhs_coord1 _ _).trans hk)
  have er : dot_S8192x128_S128x128_S8192x128_1_1_0_0_n_n.rhsIdx (ix2 r f) ((contrEquiv1 dot_S8192x128_S128x128_S8192x128_1_1_0_0_n_n 128 rfl rfl).symm k) = ix2 f k := funext fun a => Fin.ext (by
    match a with
    | ⟨0, _⟩ => exact rhs_coord0 _ _
    | ⟨1, _⟩ => exact (rhs_coord1 _ _).trans hk)
  rw [el, er]

/-- A loaded `[1, 1, 128, 128]` weight cast to `[128, 128]` reads the same entry. -/
theorem weight_cast_apply (w : Vec Ideal S1x1x128x128 .f32) (f h : Fin 128) :
    shapeCast S128x128 w shapeCasts_S1x1x128x128_S128x128 (ix2 f h) = w (ix4 (0 : Fin 1) (0 : Fin 1) f h) :=
  shapeCast_apply w shapeCasts_S1x1x128x128_S128x128 _ _ (by
    rw [Shape.rowMajor_val_four, Shape.rowMajor_val_two]
    show ((0 * 1 + 0) * 128 + f.val) * 128 + h.val = f.val * 128 + h.val
    omega)

/-- A loaded `[1, 1, 128]` bias cast to `[128]`, then to `[1, 128]`, then broadcast over the 8192 rows, reads its lane. -/
theorem bias_apply (b : Vec Ideal S1x1x128 .f32) (r : Fin 8192) (f : Fin 128) :
    broadcastTo S8192x128 (shapeCast S1x128 (shapeCast S128 b shapeCasts_S1x1x128_S128) shapeCasts_S128_S1x128) broadcasts_S1x128_S8192x128 (ix2 r f)
      = b (ix3 (0 : Fin 1) (0 : Fin 1) f) := by
  rw [broadcastTo_1b_ab_apply, shapeCast_a_1a_apply]
  exact shapeCast_apply b shapeCasts_S1x1x128_S128 _ _ (by
    rw [Shape.rowMajor_val_three, Shape.rowMajor_val_one]
    show (0 * 1 + 0) * 128 + f.val = f.val
    omega)

/-- One layer as the body spells it, on a `[8192, 128]` value and a loaded weight and bias. -/
def bodyLayer (v : FVec Ideal S8192x128 .f32) (w : Vec Ideal S1x1x128x128 .f32) (b : Vec Ideal S1x1x128 .f32) : FVec Ideal S8192x128 .f32 :=
  maximumf (addf (matmul dot_S8192x128_S128x128_S8192x128_1_1_0_0_n_n none v (shapeCast S128x128 w shapeCasts_S1x1x128x128_S128x128 : FVec Ideal S128x128 .f32) (constant S8192x128 .f32 0x00000000#32))
      (broadcastTo S8192x128 (shapeCast S1x128 (shapeCast S128 b shapeCasts_S1x1x128_S128 : FVec Ideal S128 .f32) shapeCasts_S128_S1x128 : FVec Ideal S1x128 .f32) broadcasts_S1x128_S8192x128 : FVec Ideal S8192x128 .f32))
    (broadcast S8192x128 (Scalar.ofBits .f32 0x00000000#32 : Ideal .f32))

/-- It is the layer, row by row. -/
theorem bodyLayer_apply (v : FVec Ideal S8192x128 .f32) (w : Vec Ideal S1x1x128x128 .f32) (b : Vec Ideal S1x1x128 .f32)
    (r : Fin 8192) (f : Fin 128) :
    bodyLayer v w b (ix2 r f)
      = layer (fun f h => w (ix4 (0 : Fin 1) (0 : Fin 1) f h)) (fun f => b (ix3 (0 : Fin 1) (0 : Fin 1) f)) (fun h => v (ix2 r h)) f := by
  unfold bodyLayer layer
  show max (matmul dot_S8192x128_S128x128_S8192x128_1_1_0_0_n_n none v (shapeCast S128x128 w shapeCasts_S1x1x128x128_S128x128 : FVec Ideal S128x128 .f32) (constant S8192x128 .f32 0x00000000#32) (ix2 r f)
      + (broadcastTo S8192x128 (shapeCast S1x128 (shapeCast S128 b shapeCasts_S1x1x128_S128 : FVec Ideal S128 .f32) shapeCasts_S128_S1x128 : FVec Ideal S1x128 .f32) broadcasts_S1x128_S8192x128 : FVec Ideal S8192x128 .f32) (ix2 r f))
    (Ideal.ofBits .f32 0x00000000#32) = _
  rw [matmul_apply, bias_apply, Ideal.ofBits_zero_f32]
  have e : ∀ h : Fin 128, (shapeCast S128x128 w shapeCasts_S1x1x128x128_S128x128 : FVec Ideal S128x128 .f32) (ix2 f h)
      = w (ix4 (0 : Fin 1) (0 : Fin 1) f h) := fun h => weight_cast_apply w f h
  simp only [e]

/-- The stored payload is four body layers on the loaded block, its unit axis dropped and put back. -/
theorem payload_eq (a0 : Vec Ideal S1x8192x128 .f32) (w0 w1 w2 w3 : Vec Ideal S1x1x128x128 .f32) (b0 b1 b2 b3 : Vec Ideal S1x1x128 .f32) :
    k0_pay1 (k0_pay2 a0 w0 b0 w1 b1 w2) (k0_pay3 b2) w3 b3
      = shapeCast S1x8192x128 (bodyLayer (bodyLayer (bodyLayer (bodyLayer (shapeCast S8192x128 a0 shapeCasts_S1x8192x128_S8192x128) w0 b0) w1 b1) w2 b2) w3 b3)
          shapeCasts_S8192x128_S1x8192x128 := rfl

theorem hz3 : (![0, 0, 0] : Fin 3 → Nat) = fun _ => 0 := funext fun a => by fin_cases a <;> rfl

/-- A load of layer `l`'s weight out of the staged `[1, 4, 128, 128]` block reads the block at `(0, l, ·, ·)`. -/
theorem ld_weight (x1 : Vec Ideal S1x4x128x128 .f32) (l : Fin 4) (off : Fin 4 → Nat) (hoff : off = ![0, l.val, 0, 0])
    (inb : ∀ a, off a + S1x1x128x128.size a ≤ S1x4x128x128.size a) (f h : Fin 128) :
    View.ld x1 (Rect.unit (s := S1x4x128x128) off S1x1x128x128.size inb) (ix4 (0 : Fin 1) (0 : Fin 1) f h) = x1 (ix4 (0 : Fin 1) l f h) := by
  subst hoff
  show x1 _ = x1 _
  refine congrArg x1 (funext fun a => Fin.ext ?_)
  match a with
  | ⟨0, _⟩ => show 0 + 1 * 0 = 0; rfl
  | ⟨1, _⟩ => show l.val + 1 * 0 = l.val; omega
  | ⟨2, _⟩ => show 0 + 1 * f.val = f.val; omega
  | ⟨3, _⟩ => show 0 + 1 * h.val = h.val; omega

/-- A load of layer `l`'s bias out of the staged `[1, 4, 128]` block reads the block at `(0, l, ·)`. -/
theorem ld_bias (x2 : Vec Ideal S1x4x128 .f32) (l : Fin 4) (off : Fin 3 → Nat) (hoff : off = ![0, l.val, 0])
    (inb : ∀ a, off a + S1x1x128.size a ≤ S1x4x128.size a) (f : Fin 128) :
    View.ld x2 (Rect.unit (s := S1x4x128) off S1x1x128.size inb) (ix3 (0 : Fin 1) (0 : Fin 1) f) = x2 (ix3 (0 : Fin 1) l f) := by
  subst hoff
  show x2 _ = x2 _
  refine congrArg x2 (funext fun a => Fin.ext ?_)
  match a with
  | ⟨0, _⟩ => show 0 + 1 * 0 = 0; rfl
  | ⟨1, _⟩ => show l.val + 1 * 0 = l.val; omega
  | ⟨2, _⟩ => show 0 + 1 * f.val = f.val; omega

/-- WHAT THE BODY LEAVES: row `r`, lane `f` of the output block is the four layers of the staged weights and biases on
    row `r` of the staged block of packed rows. -/
theorem out_apply (x0 : Vec Ideal S1x8192x128 .f32) (x1 : Vec Ideal S1x4x128x128 .f32) (x2 : Vec Ideal S1x4x128 .f32)
    (u : Fin 1) (r : Fin 8192) (f : Fin 128) :
    out0_3 x0 x1 x2 (ix3 u r f)
      = mlp4 (fun l f h => x1 (ix4 (0 : Fin 1) l f h)) (fun l f => x2 (ix3 (0 : Fin 1) l f)) (fun h => x0 (ix3 (0 : Fin 1) r h)) f := by
  unfold out0_3
  rw [View.canon_unit_zero hz3, View.ld_unit_zero (S := S1x8192x128) hz3, payload_eq, shapeCast_ab_1ab_apply]
  unfold mlp4
  simp only [bodyLayer_apply, shapeCast_1ab_ab_apply]
  refine congrFun (layer_congr (fun f h => ld_weight x1 3 _ rfl _ f h) (fun f => ld_bias x2 3 _ rfl _ f) fun h => ?_) f
  refine congrFun (layer_congr (fun f h => ld_weight x1 2 _ rfl _ f h) (fun f => ld_bias x2 2 _ rfl _ f) fun h => ?_) h
  refine congrFun (layer_congr (fun f h => ld_weight x1 1 _ rfl _ f h) (fun f => ld_bias x2 1 _ rfl _ f) fun h => ?_) h
  exact congrFun (layer_congr (fun f h => ld_weight x1 0 _ rfl _ f h) (fun f => ld_bias x2 0 _ rfl _ f) fun h => rfl) h

end Cert.GroupedMlp.Body

end
-- ==== Proof.HostArrays.lean ====
/-
  The three arrays the region reads, as the host operations before it leave them, read at an index.

  * The packed rows: `x` reshaped from `[2097152, 64]` to `[64, 16384, 128]`. Row-major positions are kept, so packed row
    `n` of model `g` holds, in lanes `p·64 + d`, feature `d` of row `(g·16384 + n)·2 + p` of `x`: two adjacent rows side by side.
  * The packed weights: `[[W, 0], [0, W]]` on the last two axes, built by three concatenations with a zero array. At
    `(q·64 + f, p·64 + d)` it is `W f d` when `p = q` and zero otherwise.
  * The packed biases: `b` twice along the last axis; at lane `q·64 + f` it is `b f`.
-/
import proofs.«175839_j30004641530481_2_alg».proof.Proof.Gen.KernelIdeal.Frame
import proofs.«175839_j30004641530481_2_alg».proof.Proof.PackedLayers
import Idealize.ShloMosaic.Lib.Pipeline.Value
import Idealize.ShloMosaic.Lib.ValueIdx
import Idealize.ShloMosaic.Lib.StableHlo.Run
import Idealize.ShloMosaic.PureOps.Ideal.Laws

noncomputable section

namespace Cert.GroupedMlp.Host

open Cert.KernelIdeal Cert.KernelIdeal.Gen Cert.GroupedMlp
open Idealize.ShloMosaic Idealize.ShloMosaic.TcCoe Idealize.ShloMosaic.ValueIdx Idealize.SL.Sem

/-! ## The three arrays as pure functions of the arguments -/

/-- `x` with two adjacent rows side by side. -/
def packedRows (x : S2097152x64.Idx → EReal) : S64x16384x128.Idx → EReal :=
  shapeCast S64x16384x128 x shapeCasts_S2097152x64_S64x16384x128

/-- The zero array the weights are padded with. -/
def zeros : S64x4x64x64.Idx → EReal :=
  broadcastInDim S64x4x64x64 ![] bcast_S_S64x4x64x64 (constant (F := Ideal) S_ .f32 0x00000000#32)

/-- `[[W, 0], [0, W]]`. -/
def packedWeights (W : S64x4x64x64.Idx → EReal) : S64x4x128x128.Idx → EReal :=
  concatenate S64x4x128x128 2
    [⟨S64x4x64x128, concatenate S64x4x64x128 3 [⟨S64x4x64x64, W⟩, ⟨S64x4x64x64, zeros⟩] concatenates_S64x4x64x64_S64x4x64x64_S64x4x64x128_d3⟩,
     ⟨S64x4x64x128, concatenate S64x4x64x128 3 [⟨S64x4x64x64, zeros⟩, ⟨S64x4x64x64, W⟩] concatenates_S64x4x64x64_S64x4x64x64_S64x4x64x128_d3⟩]
    concatenates_S64x4x64x128_S64x4x64x128_S64x4x128x128_d2

/-- `[b, b]`. -/
def packedBiases (b : S64x4x64.Idx → EReal) : S64x4x128.Idx → EReal :=
  concatenate S64x4x128 2 [⟨S64x4x64, b⟩, ⟨S64x4x64, b⟩] concatenates_S64x4x64_S64x4x64_S64x4x128_d2

/-! ## What the region finds -/

variable (m : (ℓ : Loc nD τ sig) → Buf (Elt Ideal) ℓ)

theorem V_rows (c : Dev nD) :
    (V m c main_v0 : S64x16384x128.Idx → EReal) = packedRows (m ((c : Thread nD τ).loc main_arg0)) := by
  show StableHlo.after hostOps0 (fun b => m (c, b)) (Proc.devRef .tc main_v0) = _
  after_results
  rfl

theorem V_weights (c : Dev nD) :
    (V m c main_v4 : S64x4x128x128.Idx → EReal) = packedWeights (m ((c : Thread nD τ).loc main_arg1)) := by
  show StableHlo.after hostOps0 (fun b => m (c, b)) (Proc.devRef .tc main_v4) = _
  after_results
  rfl

theorem V_biases (c : Dev nD) :
    (V m c main_v5 : S64x4x128.Idx → EReal) = packedBiases (m ((c : Thread nD τ).loc main_arg2)) := by
  show StableHlo.after hostOps0 (fun b => m (c, b)) (Proc.devRef .tc main_v5) = _
  after_results
  rfl

/-! ## Each read at an index -/

/-- Row `(g·16384 + n)·2 + p` of `x`: the row of `x` that sits in half `p` of packed row `n` of model `g`. -/
def rowOf (g : Fin 64) (n : Fin 16384) (p : Fin 2) : Fin 2097152 :=
  ⟨(g.val * 16384 + n.val) * 2 + p.val, by have := g.isLt; have := n.isLt; have := p.isLt; omega⟩

theorem packedRows_apply (x : S2097152x64.Idx → EReal) (g : Fin 64) (n : Fin 16384) (p : Fin 2) (d : Fin 64) :
    packedRows x (ix3 g n (lane p d)) = x (ix2 (rowOf g n p) d) :=
  shapeCast_apply x shapeCasts_S2097152x64_S64x16384x128 _ _ (by
    rw [Shape.rowMajor_val_two, Shape.rowMajor_val_three]
    have := g.isLt; have := n.isLt; have := p.isLt; have := d.isLt
    show ((g.val * 16384 + n.val) * 2 + p.val) * 64 + d.val = (g.val * 16384 + n.val) * 128 + (p.val * 64 + d.val)
    omega)

theorem zeros_apply (i : S64x4x64x64.Idx) : zeros i = 0 := by
  unfold zeros
  rw [broadcastInDim_apply _ bcast_S_S64x4x64x64 _ i ix0 (fun a => a.elim0)]
  exact Ideal.ofBits_zero_f32

theorem packedBiases_apply (b : S64x4x64.Idx → EReal) (g : Fin 64) (l : Fin 4) (q : Fin 2) (f : Fin 64) :
    packedBiases b (ix3 g l (lane q f)) = b (ix3 g l f) := by
  unfold packedBiases
  match q with
  | ⟨0, hq⟩ =>
    exact concatenate_pair_apply_left 2 b b concatenates_S64x4x64_S64x4x64_S64x4x128_d2 (ix3 g l (lane ⟨0, hq⟩ f)) rfl (ix3 g l f) (fun a => by
      match a with
      | ⟨0, _⟩ => rfl
      | ⟨1, _⟩ => rfl
      | ⟨2, _⟩ => show f.val = 0 * 64 + f.val; omega)
  | ⟨1, hq⟩ =>
    exact concatenate_pair_apply_right 2 b b concatenates_S64x4x64_S64x4x64_S64x4x128_d2 (ix3 g l (lane ⟨1, hq⟩ f)) rfl rfl (ix3 g l f) (fun a ha => by
      match a with
      | ⟨0, _⟩ => rfl
      | ⟨1, _⟩ => rfl
      | ⟨2, _⟩ => exact absurd rfl ha) (by show f.val + 64 = 1 * 64 + f.val; omega)

/-- The half `[A, B]` of the packed weight along the last axis: `A` in the first 64 lanes, `B` in the last 64. -/
theorem half_apply (A B : S64x4x64x64.Idx → EReal) (g : Fin 64) (l : Fin 4) (f : Fin 64) (p : Fin 2) (d : Fin 64) :
    concatenate S64x4x64x128 3 [⟨S64x4x64x64, A⟩, ⟨S64x4x64x64, B⟩] concatenates_S64x4x64x64_S64x4x64x64_S64x4x64x128_d3 (ix4 g l f (lane p d))
      = if p = 0 then A (ix4 g l f d) else B (ix4 g l f d) := by
  match p with
  | ⟨0, hp⟩ =>
    rw [if_pos (show (⟨0, hp⟩ : Fin 2) = 0 from rfl)]
    exact concatenate_pair_apply_left 3 A B concatenates_S64x4x64x64_S64x4x64x64_S64x4x64x128_d3 (ix4 g l f (lane ⟨0, hp⟩ d)) rfl (ix4 g l f d) (fun a => by
      match a with
      | ⟨0, _⟩ => rfl
      | ⟨1, _⟩ => rfl
      | ⟨2, _⟩ => rfl
      | ⟨3, _⟩ => show d.val = 0 * 64 + d.val; omega)
  | ⟨1, hp⟩ =>
    rw [if_neg (show ¬(⟨1, hp⟩ : Fin 2) = 0 from fun e => absurd (congrArg Fin.val e) Nat.one_ne_zero)]
    exact concatenate_pair_apply_right 3 A B concatenates_S64x4x64x64_S64x4x64x64_S64x4x64x128_d3 (ix4 g l f (lane ⟨1, hp⟩ d)) rfl rfl (ix4 g l f d) (fun a ha => by
      match a with
      | ⟨0, _⟩ => rfl
      | ⟨1, _⟩ => rfl
      | ⟨2, _⟩ => rfl
      | ⟨3, _⟩ => exact absurd rfl ha) (by show d.val + 64 = 1 * 64 + d.val; omega)

/-- THE BLOCK-DIAGONAL WEIGHT at an entry. -/
theorem packedWeights_apply (W : S64x4x64x64.Idx → EReal) (g : Fin 64) (l : Fin 4) (q : Fin 2) (f : Fin 64) (p : Fin 2) (d : Fin 64) :
    packedWeights W (ix4 g l (lane q f) (lane p d)) = if p = q then W (ix4 g l f d) else 0 := by
  unfold packedWeights
  match q with
  | ⟨0, hq⟩ =>
    refine (concatenate_pair_apply_left 2 _ _ concatenates_S64x4x64x128_S64x4x64x128_S64x4x128x128_d2 (ix4 g l (lane ⟨0, hq⟩ f) (lane p d)) rfl (ix4 g l f (lane p d)) (fun a => by
      match a with
      | ⟨0, _⟩ => rfl
      | ⟨1, _⟩ => rfl
      | ⟨2, _⟩ => show f.val = 0 * 64 + f.val; omega
      | ⟨3, _⟩ => rfl)).trans ?_
    rw [half_apply, zeros_apply]
    rfl
  | ⟨1, hq⟩ =>
    refine (concatenate_pair_apply_right 2 _ _ concatenates_S64x4x64x128_S64x4x64x128_S64x4x128x128_d2 (ix4 g l (lane ⟨1, hq⟩ f) (lane p d)) rfl rfl (ix4 g l f (lane p d)) (fun a ha => by
      match a with
      | ⟨0, _⟩ => rfl
      | ⟨1, _⟩ => rfl
      | ⟨2, _⟩ => exact absurd rfl ha
      | ⟨3, _⟩ => rfl) (by show f.val + 64 = 1 * 64 + f.val; omega)).trans ?_
    rw [half_apply, zeros_apply]
    match p with
    | ⟨0, _⟩ => rfl
    | ⟨1, _⟩ => rfl

end Cert.GroupedMlp.Host

end
-- ==== Proof.Result.lean ====
/-
  THE RESULT both programs compute, as one function of the three argument arrays: row `r` of `x` belongs to model
  `r / 32768` (64 models, 32768 consecutive rows each), and the result's row `r` is the four Linear+ReLU layers of that
  model — weights `W[model, l]`, biases `b[model, l]`, `l = 0, 1, 2, 3` — on row `r` of `x`.
-/
import proofs.«175839_j30004641530481_2_alg».proof.Proof.PackedLayers

noncomputable section

namespace Cert.GroupedMlp

open Idealize.ShloMosaic Idealize.ShloMosaic.ValueIdx

/-- The model a row of `x` belongs to. -/
def modelOf (r : Fin 2097152) : Fin 64 := ⟨r.val / 32768, by have := r.isLt; omega⟩

theorem modelOf_val (r : Fin 2097152) : (modelOf r).val = r.val / 32768 := rfl

/-- The result, index by index. -/
def result (x : (⟨2, ![2097152, 64]⟩ : Shape).Idx → EReal) (W : (⟨4, ![64, 4, 64, 64]⟩ : Shape).Idx → EReal)
    (b : (⟨3, ![64, 4, 64]⟩ : Shape).Idx → EReal) : (⟨2, ![2097152, 64]⟩ : Shape).Idx → EReal :=
  fun i => mlp4 (fun l f d => W (ix4 (modelOf (i 0)) l f d)) (fun l f => b (ix3 (modelOf (i 0)) l f))
    (fun d => x (ix2 (i 0) d)) (i 1)

theorem result_apply (x : (⟨2, ![2097152, 64]⟩ : Shape).Idx → EReal) (W : (⟨4, ![64, 4, 64, 64]⟩ : Shape).Idx → EReal)
    (b : (⟨3, ![64, 4, 64]⟩ : Shape).Idx → EReal) (r : Fin 2097152) (f : Fin 64) :
    result x W b (ix2 r f) = mlp4 (fun l f d => W (ix4 (modelOf r) l f d)) (fun l f => b (ix3 (modelOf r) l f))
      (fun d => x (ix2 r d)) f := rfl

end Cert.GroupedMlp

end
-- ==== Proof.PackedResult.lean ====
/-
  The packed computation is `GroupedMlp.result`. On the packed arrays — rows paired side by side, weights `diag(W, W)`,
  biases doubled — the four layers at packed row `n` of model `g` give, in lane `p·64 + f`, the four layers of the
  unpacked weights on row `(g·16384 + n)·2 + p` of `x` at feature `f` (`GroupedMlp.packed_mlp4`). Reshaping the
  `[64, 16384, 128]` result back to `[2097152, 64]` keeps row-major positions, so row `r`, feature `f` reads model
  `r / 32768`, packed row `(r % 32768) / 2`, lane `(r % 2)·64 + f` — which is row `r` again.
-/
import proofs.«175839_j30004641530481_2_alg».proof.Proof.HostArrays
import proofs.«175839_j30004641530481_2_alg».proof.Proof.Result

noncomputable section

namespace Cert.GroupedMlp.Host

open Cert.KernelIdeal Cert.KernelIdeal.Gen Cert.GroupedMlp
open Idealize.ShloMosaic Idealize.ShloMosaic.TcCoe Idealize.ShloMosaic.ValueIdx

/-- The four layers on packed arrays: at `(g, n, ·)` the layers of model `g`'s packed weights and biases on packed row `n`. -/
def packedResult (X : S64x16384x128.Idx → EReal) (Wd : S64x4x128x128.Idx → EReal) (Bd : S64x4x128.Idx → EReal) :
    S64x16384x128.Idx → EReal :=
  fun i => mlp4 (fun l f h => Wd (ix4 (i 0 : Fin 64) l f h)) (fun l f => Bd (ix3 (i 0 : Fin 64) l f))
    (fun h => X (ix3 (i 0 : Fin 64) (i 1 : Fin 16384) h)) (i 2 : Fin 128)

theorem packedResult_apply (X : S64x16384x128.Idx → EReal) (Wd : S64x4x128x128.Idx → EReal) (Bd : S64x4x128.Idx → EReal)
    (g : Fin 64) (n : Fin 16384) (f : Fin 128) :
    packedResult X Wd Bd (ix3 g n f) = mlp4 (fun l f h => Wd (ix4 g l f h)) (fun l f => Bd (ix3 g l f)) (fun h => X (ix3 g n h)) f := rfl

/-- The packed result, reshaped to `[2097152, 64]`, is the result. -/
theorem packed_eq (x : S2097152x64.Idx → EReal) (W : S64x4x64x64.Idx → EReal) (b : S64x4x64.Idx → EReal) :
    shapeCast S2097152x64 (packedResult (packedRows x) (packedWeights W) (packedBiases b)) shapeCasts_S64x16384x128_S2097152x64
      = result x W b := by
  funext i
  obtain ⟨r, f, rfl⟩ : ∃ (r : Fin 2097152) (f : Fin 64), i = ix2 r f := ⟨i 0, i 1, eq_ix2 i⟩
  have hr := r.isLt
  have hf := f.isLt
  -- where row `r` sits in the packed layout
  let n : Fin 16384 := ⟨r.val % 32768 / 2, by omega⟩
  let p : Fin 2 := ⟨r.val % 2, by omega⟩
  have erow : rowOf (modelOf r) n p = r := Fin.ext (by
    show (r.val / 32768 * 16384 + r.val % 32768 / 2) * 2 + r.val % 2 = r.val; omega)
  rw [shapeCast_apply _ shapeCasts_S64x16384x128_S2097152x64 (ix2 r f) (ix3 (modelOf r) n (lane p f)) (by
      rw [Shape.rowMajor_val_three, Shape.rowMajor_val_two]
      show (r.val / 32768 * 16384 + r.val % 32768 / 2) * 128 + (r.val % 2 * 64 + f.val) = r.val * 64 + f.val
      omega),
    packedResult_apply, result_apply]
  refine (packed_mlp4 (fun p d => x (ix2 (rowOf (modelOf r) n p) d)) (fun l f d => W (ix4 (modelOf r) l f d))
    (fun l f => b (ix3 (modelOf r) l f)) _ _ _ (fun p d => packedRows_apply x (modelOf r) n p d)
    (fun l q f p d => packedWeights_apply W (modelOf r) l q f p d) (fun l q f => packedBiases_apply b (modelOf r) l q f) p f).trans ?_
  show mlp4 _ _ (fun d => x (ix2 (rowOf (modelOf r) n p) d)) f = _
  rw [erow]

end Cert.GroupedMlp.Host

end
-- ==== Proof.KernelResult.lean ====
/-
  The kernel's run, read. Grid point `t` (of 64 × 2) stages block `(t / 2, t % 2)` of the packed rows — rows
  `(t % 2) · 8192 … + 8191` of model `t / 2` — and the whole packed weight and bias of model `t / 2`, and writes back the
  same block of the output. What it writes is that block of `Host.packedResult` of the three staged arrays (the body's
  payload read at an index, each staged block read where the output block's rectangle says). The 128 output blocks tile the
  `[64, 16384, 128]` array — index `(g, n, ·)` lies in the block of point `2·g + n / 8192` — so after the region the array IS
  `packedResult`; the one host operation after the region reshapes it to `[2097152, 64]`, and by `Host.packed_eq` that is
  `GroupedMlp.result` of the arguments.
-/
import proofs.«175839_j30004641530481_2_alg».proof.Proof.BodyPayload
import proofs.«175839_j30004641530481_2_alg».proof.Proof.PackedResult
import Idealize.ShloMosaic.Lib.StableHlo.Run

set_option maxRecDepth 16384

noncomputable section

namespace Cert.GroupedMlp.Kernel

open Cert.KernelIdeal Cert.KernelIdeal.Gen Cert.GroupedMlp Cert.GroupedMlp.Host
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the 128 grid points: the rows' block and the output's block are `(t / 2, t % 2, 0)`, the
    weights' `(t / 2, 0, 0, 0)`, the biases' `(t / 2, 0, 0)`. -/
theorem index_facts : ∀ t : Fin cfg0.N,
    win0_3.index t (0 : Fin 3) = t.val / 2 ∧ win0_3.index t (1 : Fin 3) = t.val % 2 ∧ win0_3.index t (2 : Fin 3) = 0
    ∧ win0_0.index t (0 : Fin 3) = t.val / 2 ∧ win0_0.index t (1 : Fin 3) = t.val % 2 ∧ win0_0.index t (2 : Fin 3) = 0
    ∧ win0_1.index t (0 : Fin 4) = t.val / 2 ∧ win0_1.index t (1 : Fin 4) = 0 ∧ win0_1.index t (2 : Fin 4) = 0 ∧ win0_1.index t (3 : Fin 4) = 0
    ∧ win0_2.index t (0 : Fin 3) = t.val / 2 ∧ win0_2.index t (1 : Fin 3) = 0 ∧ win0_2.index t (2 : Fin 3) = 0 :=
  (by decide +kernel : ∀ t : Fin grid0.N, _)

/-- The model and the first packed row of grid point `t`'s block. -/
def modelAt (t : Fin cfg0.N) : Fin 64 := ⟨t.val / 2, by have := t.isLt; have hN : cfg0.N = 128 := N_0; omega⟩
def rowAt (t : Fin cfg0.N) (r : Fin 8192) : Fin 16384 := ⟨t.val % 2 * 8192 + r.val, by have := r.isLt; omega⟩

/-- WHAT POINT `t` WRITES BACK is block `t` of the packed result of the arrays the region finds. -/
theorem flushed_eq (c : Dev nD) (t : Fin cfg0.N) :
    (dats m 0 c).flushed 3 t
      = ((cfg0.win 3).blk t).view.read (Elt Ideal) (packedResult (V m c main_v0) (V m c main_v4) (V m c main_v5)) := by
  show (cfg0.win 3).cut (grid0.coords t) ((dats m 0 c).after 3 t) = _
  rw [after0_3]
  obtain ⟨o0, o1, o2, r0, r1, r2, w0, w1, w2, w3, b0, b1, b2⟩ := index_facts t
  funext j
  obtain ⟨u, r, f, rfl⟩ : ∃ (u : Fin 1) (r : Fin 8192) (f : Fin 128), j = ix3 u r f := ⟨j 0, j 1, j 2, eq_ix3 j⟩
  have hu : u.val = 0 := by have := u.isLt; omega
  have hr := r.isLt
  have hf := f.isLt
  refine (Body.out_apply (iblk m c 0 t) (iblk m c 1 t) (iblk m c 2 t) u r f).trans ?_
  have eout : ((cfg0.win 3).blk t).view.emb (ix3 u r f) = ix3 (modelAt t) (rowAt t r) f := funext fun a => Fin.ext (by
    match a with
    | ⟨0, _⟩ => show win0_3.index t (0 : Fin 3) * 1 + 1 * u.val = t.val / 2; omega
    | ⟨1, _⟩ => show win0_3.index t (1 : Fin 3) * 8192 + 1 * r.val = t.val % 2 * 8192 + r.val; omega
    | ⟨2, _⟩ => show win0_3.index t (2 : Fin 3) * 128 + 1 * f.val = f.val; omega)
  show _ = packedResult _ _ _ (((cfg0.win 3).blk t).view.emb (ix3 u r f))
  rw [eout, packedResult_apply]
  refine congrFun (mlp4_congr (fun l f' h => ?_) (fun l f' => ?_) (fun h => ?_)) f
  · show V m c main_v4 (((cfg0.win 1).blk t).view.emb (ix4 (0 : Fin 1) l f' h)) = V m c main_v4 (ix4 (modelAt t) l f' h)
    refine congrArg (V m c main_v4) (funext fun a => Fin.ext ?_)
    have := l.isLt; have := f'.isLt; have := h.isLt
    match a with
    | ⟨0, _⟩ => show win0_1.index t (0 : Fin 4) * 1 + 1 * 0 = t.val / 2; omega
    | ⟨1, _⟩ => show win0_1.index t (1 : Fin 4) * 4 + 1 * l.val = l.val; omega
    | ⟨2, _⟩ => show win0_1.index t (2 : Fin 4) * 128 + 1 * f'.val = f'.val; omega
    | ⟨3, _⟩ => show win0_1.index t (3 : Fin 4) * 128 + 1 * h.val = h.val; omega
  · show V m c main_v5 (((cfg0.win 2).blk t).view.emb (ix3 (0 : Fin 1) l f')) = V m c main_v5 (ix3 (modelAt t) l f')
    refine congrArg (V m c main_v5) (funext fun a => Fin.ext ?_)
    have := l.isLt; have := f'.isLt
    match a with
    | ⟨0, _⟩ => show win0_2.index t (0 : Fin 3) * 1 + 1 * 0 = t.val / 2; omega
    | ⟨1, _⟩ => show win0_2.index t (1 : Fin 3) * 4 + 1 * l.val = l.val; omega
    | ⟨2, _⟩ => show win0_2.index t (2 : Fin 3) * 128 + 1 * f'.val = f'.val; omega
  · show V m c main_v0 (((cfg0.win 0).blk t).view.emb (ix3 (0 : Fin 1) r h)) = V m c main_v0 (ix3 (modelAt t) (rowAt t r) h)
    refine congrArg (V m c main_v0) (funext fun a => Fin.ext ?_)
    have := h.isLt
    match a with
    | ⟨0, _⟩ => show win0_0.index t (0 : Fin 3) * 1 + 1 * 0 = t.val / 2; omega
    | ⟨1, _⟩ => show win0_0.index t (1 : Fin 3) * 8192 + 1 * r.val = t.val % 2 * 8192 + r.val; omega
    | ⟨2, _⟩ => show win0_0.index t (2 : Fin 3) * 128 + 1 * h.val = h.val; omega

/-- An index of the output array is in point `t`'s block iff each coordinate is in the block's range on its axis. -/
theorem mem_blk (t : Fin cfg0.N) (i : S64x16384x128.Idx) :
    i ∈ ((cfg0.win 3).blk t).view.set ↔ ∀ a : Fin 3, win0_3.index t a * S1x8192x128.size a ≤ (i a).val ∧ (i a).val < win0_3.index t a * S1x8192x128.size a + S1x8192x128.size a := by
  show i ∈ ((View.whole main_v6).slice (win0_3.rect t)).set ↔ _
  rw [View.set_slice_whole, Rect.mem_set_unit]
  exact Iff.rfl

/-- THE BLOCKS TILE THE ARRAY: `(g, n, ·)` is in the block of point `2·g + n / 8192`. -/
theorem cover (i : S64x16384x128.Idx) :
    ∃ t : Fin cfg0.N, (cfg0.win 3).flush t = true ∧ i ∈ ((cfg0.win 3).blk t).view.set := by
  have h0 : (i 0).val < 64 := (i 0).isLt
  have h1 : (i 1).val < 16384 := (i 1).isLt
  have h2 : (i 2).val < 128 := (i 2).isLt
  have hN : cfg0.N = 128 := N_0
  obtain ⟨t, ht⟩ : ∃ t : Fin cfg0.N, t.val = (i 0).val * 2 + (i 1).val / 8192 := ⟨⟨(i 0).val * 2 + (i 1).val / 8192, by omega⟩, rfl⟩
  obtain ⟨o0, o1, o2, -⟩ := index_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 128 ≤ (i 2).val ∧ (i 2).val < win0_3.index t (2 : Fin 3) * 128 + 128; omega

/-- THE OUTPUT ARRAY after the region: the packed result of the packed arguments. -/
theorem final (c : Dev nD) :
    (dats m 0 c).arrAt 3 cfg0.N
      = packedResult (packedRows (m ((c : Thread nD τ).loc main_arg0))) (packedWeights (m ((c : Thread nD τ).loc main_arg1)))
          (packedBiases (m ((c : Thread nD τ).loc main_arg2))) := by
  rw [← V_rows m c, ← V_weights m c, ← V_biases m c]
  exact (dats m 0 c).arrAt_eq_of_cover 3 _ (fun t _ => flushed_eq m c t) cover

/-- THE RESULT BUFFER after the host operation that follows the region. -/
theorem tail_eq (c : Dev nD) :
    Pipeline.afterTail₀ cfgs (dats m) 0 (V0 m) [hostOps1] c main_v7
      = result (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = (dats m 0 c).arrAt 3 cfg0.N := Pipeline.withArrays_arr spec0 launch0.win.arr_inj c _ _ 3
  show shapeCast S2097152x64 (Pipeline.withArrays (cfgs 0).spec c (V0 m c) (fun w => (dats m 0 c).arrAt w (cfgs 0).N) (Proc.devRef .tc main_v6))
      shapeCasts_S64x16384x128_S2097152x64 = _
  rw [e, final, packed_eq]

/-- THE KERNEL'S RUN: every weakly fair execution terminates with the result buffer at `GroupedMlp.result` of the
    arguments, and the arguments unchanged. -/
theorem run : θ_run (defs (F := Ideal)) (onTc (τ := τ) (main (F := Ideal))) ⟨m, fun _ => 0, ρ⟩ fun r => ∀ c : Dev nD,
      r.2.mem ((c.tc : Thread nD τ).loc main_v7)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.GroupedMlp.Kernel

end
-- ==== Proof.ReferenceLayers.lean ====
/-
  The reference read layer by layer. Its program reshapes `x` to `[64, 32768, 64]` (model, row of the model, feature),
  and for each layer `l` contracts the last axis against the slice `W[:, l]`, adds the slice `b[:, l]` along the rows,
  and takes the maximum with zero; the result is reshaped back to `[2097152, 64]`. Read at an index, stage by stage, each
  layer is `GroupedMlp.layer` of the model's own weight and bias on the row the previous stage holds, so the result at row
  `r`, feature `f` is the four layers of model `r / 32768` on row `r` of `x`.
-/
import proofs.«175839_j30004641530481_2_alg».proof.Proof.Gen.ReferenceIdeal.Read
import proofs.«175839_j30004641530481_2_alg».proof.Proof.PackedLayers

noncomputable section

namespace Cert.GroupedMlp.Ref

open Cert.ReferenceIdeal Cert.ReferenceIdeal.Read Cert.GroupedMlp
open Idealize.ShloMosaic Idealize.ShloMosaic.TcCoe Idealize.ShloMosaic.ValueIdx

/-- Layer 0 of the reference at row `n` of model `m`: the layer of the model's weight `W[m, 0]` and bias `b[m, 0]`
    on the row the previous stage holds there. -/
theorem ref_layer0 (x0 : S2097152x64.Idx → EReal) (x1 : S64x4x64x64.Idx → EReal) (x2 : S64x4x64.Idx → EReal)
    (m : Fin 64) (n : Fin 32768) (f : Fin 64) :
    val_main_v9 (F := Ideal) x0 x1 x2 (ix3 m n f)
      = layer (fun f d => x1 (ix4 m (0 : Fin 4) f d)) (fun f => x2 (ix3 m (0 : Fin 4) f))
          (fun d => val_main_v0 (F := Ideal) x0 (ix3 m n d)) f := by
  have el : ∀ k : Fin 64, lidx_main_v3 (ix3 m n f) k = ix3 m n k := fun k => funext fun a => Fin.ext (by
    match a with | ⟨0, _⟩ => rfl | ⟨1, _⟩ => rfl | ⟨2, _⟩ => rfl)
  have er : ∀ k : Fin 64, idx_main_v1 (idx_main_v2 (ridx_main_v3 (ix3 m n f) k)) = ix4 m (0 : Fin 4) f k := fun k =>
    funext fun a => Fin.ext (by
      have hm := m.isLt; have hf := f.isLt; have hk := k.isLt
      match a with
      | ⟨0, _⟩ => show ((m.val * 64 + f.val) * 64 + k.val) / 4096 = m.val; omega
      | ⟨1, _⟩ => show 0 + 0 = 0; rfl
      | ⟨2, _⟩ => show ((m.val * 64 + f.val) * 64 + k.val) / 64 % 64 = f.val; omega
      | ⟨3, _⟩ => show ((m.val * 64 + f.val) * 64 + k.val) % 64 = k.val; omega)
  have eb : idx_main_v4 (idx_main_v5 (idx_main_v6 (idx_main_v7 (ix3 m n f)))) = ix3 m (0 : Fin 4) f :=
    funext fun a => Fin.ext (by
      have hm := m.isLt; have hf := f.isLt
      match a with
      | ⟨0, _⟩ => show (m.val * 64 + f.val) / 64 = m.val; omega
      | ⟨1, _⟩ => show 0 + 0 = 0; rfl
      | ⟨2, _⟩ => show (m.val * 64 + f.val) % 64 = f.val; omega)
  rw [val_main_v9_apply, val_main_v8_apply, val_main_v3_apply, val_main_v7_apply, val_main_v6_apply,
    val_main_v5_apply, val_main_v4_apply, val_main_call0_v0_apply, val_main_call0_cst_apply, eb]
  simp only [val_main_v2_apply, val_main_v1_apply, el, er]
  show max (_ + _) (Ideal.ofBits .f32 0x00000000#32) = _
  rw [Ideal.ofBits_zero_f32]
  rfl

/-- Layer 1 of the reference at row `n` of model `m`: the layer of the model's weight `W[m, 1]` and bias `b[m, 1]`
    on the row the previous stage holds there. -/
theorem ref_layer1 (x0 : S2097152x64.Idx → EReal) (x1 : S64x4x64x64.Idx → EReal) (x2 : S64x4x64.Idx → EReal)
    (m : Fin 64) (n : Fin 32768) (f : Fin 64) :
    val_main_v18 (F := Ideal) x0 x1 x2 (ix3 m n f)
      = layer (fun f d => x1 (ix4 m (1 : Fin 4) f d)) (fun f => x2 (ix3 m (1 : Fin 4) f))
          (fun d => val_main_v9 (F := Ideal) x0 x1 x2 (ix3 m n d)) f := by
  have el : ∀ k : Fin 64, lidx_main_v12 (ix3 m n f) k = ix3 m n k := fun k => funext fun a => Fin.ext (by
    match a with | ⟨0, _⟩ => rfl | ⟨1, _⟩ => rfl | ⟨2, _⟩ => rfl)
  have er : ∀ k : Fin 64, idx_main_v10 (idx_main_v11 (ridx_main_v12 (ix3 m n f) k)) = ix4 m (1 : Fin 4) f k := fun k =>
    funext fun a => Fin.ext (by
      have hm := m.isLt; have hf := f.isLt; have hk := k.isLt
      match a with
      | ⟨0, _⟩ => show ((m.val * 64 + f.val) * 64 + k.val) / 4096 = m.val; omega
      | ⟨1, _⟩ => show 1 + 0 = 1; rfl
      | ⟨2, _⟩ => show ((m.val * 64 + f.val) * 64 + k.val) / 64 % 64 = f.val; omega
      | ⟨3, _⟩ => show ((m.val * 64 + f.val) * 64 + k.val) % 64 = k.val; omega)
  have eb : idx_main_v13 (idx_main_v14 (idx_main_v15 (idx_main_v16 (ix3 m n f)))) = ix3 m (1 : Fin 4) f :=
    funext fun a => Fin.ext (by
      have hm := m.isLt; have hf := f.isLt
      match a with
      | ⟨0, _⟩ => show (m.val * 64 + f.val) / 64 = m.val; omega
      | ⟨1, _⟩ => show 1 + 0 = 1; rfl
      | ⟨2, _⟩ => show (m.val * 64 + f.val) % 64 = f.val; omega)
  rw [val_main_v18_apply, val_main_v17_apply, val_main_v12_apply, val_main_v16_apply, val_main_v15_apply,
    val_main_v14_apply, val_main_v13_apply, val_main_call1_v0_apply, val_main_call1_cst_apply, eb]
  simp only [val_main_v11_apply, val_main_v10_apply, el, er]
  show max (_ + _) (Ideal.ofBits .f32 0x00000000#32) = _
  rw [Ideal.ofBits_zero_f32]
  rfl

/-- Layer 2 of the reference at row `n` of model `m`: the layer of the model's weight `W[m, 2]` and bias `b[m, 2]`
    on the row the previous stage holds there. -/
theorem ref_layer2 (x0 : S2097152x64.Idx → EReal) (x1 : S64x4x64x64.Idx → EReal) (x2 : S64x4x64.Idx → EReal)
    (m : Fin 64) (n : Fin 32768) (f : Fin 64) :
    val_main_v27 (F := Ideal) x0 x1 x2 (ix3 m n f)
      = layer (fun f d => x1 (ix4 m (2 : Fin 4) f d)) (fun f => x2 (ix3 m (2 : Fin 4) f))
          (fun d => val_main_v18 (F := Ideal) x0 x1 x2 (ix3 m n d)) f := by
  have el : ∀ k : Fin 64, lidx_main_v21 (ix3 m n f) k = ix3 m n k := fun k => funext fun a => Fin.ext (by
    match a with | ⟨0, _⟩ => rfl | ⟨1, _⟩ => rfl | ⟨2, _⟩ => rfl)
  have er : ∀ k : Fin 64, idx_main_v19 (idx_main_v20 (ridx_main_v21 (ix3 m n f) k)) = ix4 m (2 : Fin 4) f k := fun k =>
    funext fun a => Fin.ext (by
      have hm := m.isLt; have hf := f.isLt; have hk := k.isLt
      match a with
      | ⟨0, _⟩ => show ((m.val * 64 + f.val) * 64 + k.val) / 4096 = m.val; omega
      | ⟨1, _⟩ => show 2 + 0 = 2; rfl
      | ⟨2, _⟩ => show ((m.val * 64 + f.val) * 64 + k.val) / 64 % 64 = f.val; omega
      | ⟨3, _⟩ => show ((m.val * 64 + f.val) * 64 + k.val) % 64 = k.val; omega)
  have eb : idx_main_v22 (idx_main_v23 (idx_main_v24 (idx_main_v25 (ix3 m n f)))) = ix3 m (2 : Fin 4) f :=
    funext fun a => Fin.ext (by
      have hm := m.isLt; have hf := f.isLt
      match a with
      | ⟨0, _⟩ => show (m.val * 64 + f.val) / 64 = m.val; omega
      | ⟨1, _⟩ => show 2 + 0 = 2; rfl
      | ⟨2, _⟩ => show (m.val * 64 + f.val) % 64 = f.val; omega)
  rw [val_main_v27_apply, val_main_v26_apply, val_main_v21_apply, val_main_v25_apply, val_main_v24_apply,
    val_main_v23_apply, val_main_v22_apply, val_main_call2_v0_apply, val_main_call2_cst_apply, eb]
  simp only [val_main_v20_apply, val_main_v19_apply, el, er]
  show max (_ + _) (Ideal.ofBits .f32 0x00000000#32) = _
  rw [Ideal.ofBits_zero_f32]
  rfl

/-- Layer 3 of the reference at row `n` of model `m`: the layer of the model's weight `W[m, 3]` and bias `b[m, 3]`
    on the row the previous stage holds there. -/
theorem ref_layer3 (x0 : S2097152x64.Idx → EReal) (x1 : S64x4x64x64.Idx → EReal) (x2 : S64x4x64.Idx → EReal)
    (m : Fin 64) (n : Fin 32768) (f : Fin 64) :
    val_main_v36 (F := Ideal) x0 x1 x2 (ix3 m n f)
      = layer (fun f d => x1 (ix4 m (3 : Fin 4) f d)) (fun f => x2 (ix3 m (3 : Fin 4) f))
          (fun d => val_main_v27 (F := Ideal) x0 x1 x2 (ix3 m n d)) f := by
  have el : ∀ k : Fin 64, lidx_main_v30 (ix3 m n f) k = ix3 m n k := fun k => funext fun a => Fin.ext (by
    match a with | ⟨0, _⟩ => rfl | ⟨1, _⟩ => rfl | ⟨2, _⟩ => rfl)
  have er : ∀ k : Fin 64, idx_main_v28 (idx_main_v29 (ridx_main_v30 (ix3 m n f) k)) = ix4 m (3 : Fin 4) f k := fun k =>
    funext fun a => Fin.ext (by
      have hm := m.isLt; have hf := f.isLt; have hk := k.isLt
      match a with
      | ⟨0, _⟩ => show ((m.val * 64 + f.val) * 64 + k.val) / 4096 = m.val; omega
      | ⟨1, _⟩ => show 3 + 0 = 3; rfl
      | ⟨2, _⟩ => show ((m.val * 64 + f.val) * 64 + k.val) / 64 % 64 = f.val; omega
      | ⟨3, _⟩ => show ((m.val * 64 + f.val) * 64 + k.val) % 64 = k.val; omega)
  have eb : idx_main_v31 (idx_main_v32 (idx_main_v33 (idx_main_v34 (ix3 m n f)))) = ix3 m (3 : Fin 4) f :=
    funext fun a => Fin.ext (by
      have hm := m.isLt; have hf := f.isLt
      match a with
      | ⟨0, _⟩ => show (m.val * 64 + f.val) / 64 = m.val; omega
      | ⟨1, _⟩ => show 3 + 0 = 3; rfl
      | ⟨2, _⟩ => show (m.val * 64 + f.val) % 64 = f.val; omega)
  rw [val_main_v36_apply, val_main_v35_apply, val_main_v30_apply, val_main_v34_apply, val_main_v33_apply,
    val_main_v32_apply, val_main_v31_apply, val_main_call3_v0_apply, val_main_call3_cst_apply, eb]
  simp only [val_main_v29_apply, val_main_v28_apply, el, er]
  show max (_ + _) (Ideal.ofBits .f32 0x00000000#32) = _
  rw [Ideal.ofBits_zero_f32]
  rfl

end Cert.GroupedMlp.Ref

end
-- ==== Proof.ReferenceResult.lean ====
/-
  The reference computes `GroupedMlp.result`: its last stage reshapes `[64, 32768, 64]` back to `[2097152, 64]`, so row `r`
  reads row `r % 32768` of model `r / 32768`, which the four layers read back to row `r` of `x` (the first reshape's
  row `g · 32768 + n`).
-/
import proofs.«175839_j30004641530481_2_alg».proof.Proof.ReferenceLayers
import proofs.«175839_j30004641530481_2_alg».proof.Proof.Result

noncomputable section

namespace Cert.GroupedMlp.Ref

open Cert.ReferenceIdeal Cert.ReferenceIdeal.Read Cert.GroupedMlp
open Idealize.ShloMosaic Idealize.ShloMosaic.TcCoe Idealize.ShloMosaic.ValueIdx

/-- Row `r` within its model. -/
def rowIn (r : Fin 2097152) : Fin 32768 := ⟨r.val % 32768, Nat.mod_lt _ (by decide)⟩

theorem reference_eq (x0 : S2097152x64.Idx → EReal) (x1 : S64x4x64x64.Idx → EReal) (x2 : S64x4x64.Idx → EReal) :
    val_main_v37 (F := Ideal) x0 x1 x2 = result x0 x1 x2 := by
  funext i
  obtain ⟨r, f, rfl⟩ : ∃ (r : Fin 2097152) (f : Fin 64), i = ix2 r f := ⟨i 0, i 1, eq_ix2 i⟩
  have e37 : idx_main_v37 (ix2 r f) = ix3 (modelOf r) (rowIn r) f := funext fun a => Fin.ext (by
    have hr := r.isLt; have hf := f.isLt
    match a with
    | ⟨0, _⟩ => show (r.val * 64 + f.val) / 2097152 = r.val / 32768; omega
    | ⟨1, _⟩ => show (r.val * 64 + f.val) / 64 % 32768 = r.val % 32768; omega
    | ⟨2, _⟩ => show (r.val * 64 + f.val) % 64 = f.val; omega)
  have e0 : ∀ d : Fin 64, idx_main_v0 (ix3 (modelOf r) (rowIn r) d) = ix2 r d := fun d => funext fun a => Fin.ext (by
    have hr := r.isLt; have hd := d.isLt
    match a with
    | ⟨0, _⟩ => show ((r.val / 32768 * 32768 + r.val % 32768) * 64 + d.val) / 64 = r.val; omega
    | ⟨1, _⟩ => show ((r.val / 32768 * 32768 + r.val % 32768) * 64 + d.val) % 64 = d.val; omega)
  rw [val_main_v37_apply, e37, ref_layer3, result_apply]
  simp only [ref_layer2, ref_layer1, ref_layer0, val_main_v0_apply, e0]
  rfl

end Cert.GroupedMlp.Ref

end
-- ==== Proof.lean ====
/-
  The kernel and its reference compute the same function on the extended reals.

  THE FUNCTION. `x : [2097152, 64]` is cut into 64 groups of 32768 consecutive rows; group `g` has its own four
  Linear+ReLU layers, weights `W[g, l] : [64, 64]` (`[out, in]`) and biases `b[g, l] : [64]`. The result's row `r` is
  `GroupedMlp.result`: the four layers `y ↦ max (y · W[g, l]ᵀ + b[g, l]) 0` of group `g = r / 32768` on row `r` of `x`
  (Proof/Result.lean).

  THE REFERENCE reshapes `x` to `[64, 32768, 64]`, and per layer contracts against the slice `W[:, l]`, adds `b[:, l]`
  and takes the maximum with zero; read index by index that is `result` (Proof/ReferenceLayers.lean,
  Proof/ReferenceResult.lean).

  THE KERNEL pairs adjacent rows into 128 lanes (a reshape to `[64, 16384, 128]`), builds the block-diagonal weights
  `diag(W, W)` and the doubled biases (Proof/HostArrays.lean), and runs the four layers on packed rows, 8192 at a grid
  point (Proof/BodyPayload.lean); its 128 output blocks tile the packed output, which a last reshape lays out as
  `[2097152, 64]` again (Proof/KernelResult.lean). The packed layers are the unpacked ones on each of the two rows of a
  pair, because a contraction over the 128 lanes splits into the two contractions over 64 features and in the half that
  belongs to the other row every product has a zero factor — `x · 0 = 0` for every extended real, so no finiteness of
  the inputs is used (Proof/PackedLayers.lean, Proof/PackedResult.lean).

  The three frames are the programs' runs with the result dropped; the idealization rewrote nothing, so `preserves` is
  `True`.
-/
import proofs.«175839_j30004641530481_2_alg».proof.Defs
import proofs.«175839_j30004641530481_2_alg».proof.Proof.Gen.Kernel
import proofs.«175839_j30004641530481_2_alg».proof.Proof.Gen.Kernel.Skeleton
import proofs.«175839_j30004641530481_2_alg».proof.Proof.Gen.Kernel.Launch
import proofs.«175839_j30004641530481_2_alg».proof.Proof.Gen.Kernel.Points
import proofs.«175839_j30004641530481_2_alg».proof.Proof.Gen.Kernel.Frame
import proofs.«175839_j30004641530481_2_alg».proof.Proof.Gen.KernelIdeal
import proofs.«175839_j30004641530481_2_alg».proof.Proof.Gen.KernelIdeal.Skeleton
import proofs.«175839_j30004641530481_2_alg».proof.Proof.Gen.KernelIdeal.Launch
import proofs.«175839_j30004641530481_2_alg».proof.Proof.Gen.KernelIdeal.Points
import proofs.«175839_j30004641530481_2_alg».proof.Proof.Gen.KernelIdeal.Frame
import proofs.«175839_j30004641530481_2_alg».proof.Proof.Gen.ReferenceIdeal
import proofs.«175839_j30004641530481_2_alg».proof.Proof.Gen.ReferenceIdeal.Run
import proofs.«175839_j30004641530481_2_alg».proof.Proof.Gen.ReferenceIdeal.Read
import proofs.«175839_j30004641530481_2_alg».proof.Proof.Gen.Pre_finite_inputs
import proofs.«175839_j30004641530481_2_alg».proof.Proof.KernelResult
import proofs.«175839_j30004641530481_2_alg».proof.Proof.ReferenceResult
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result buffer at `GroupedMlp.result` of the arguments: the kernel by its run read through
    the packing law, the reference by its run read layer by layer; the arguments agree. -/
theorem algebraic : Cert.algebraic_KernelIdeal_ReferenceIdeal := by
  intro m ρ m' ρ' _ hagree
  refine ⟨fun c => Cert.GroupedMlp.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.GroupedMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.GroupedMlp.Ref.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
